-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x768 : Shape := ⟨3, ![2, 1024, 768]⟩
abbrev S2x128x1024 : Shape := ⟨3, ![2, 128, 1024]⟩
abbrev S_ : Shape := ⟨0, ![]⟩

class Facts : Prop where
  bcast_S_S2x1024x768 : S_.BroadcastsInDim S2x1024x768 (![] : Fin 0 → Fin S2x1024x768.rank)
  reducesTo_S2x1024x768_S_d0_1_2 : S2x1024x768.ReducesTo [0, 1, 2] S_
  h_S_ : 0 < S_.numel

variable [Facts]

def fn {F : FTy → Type} [FloatOps F] (main_arg0 : FVec F S2x1024x768 .f32) (main_arg1 : IVec S2x128x1024 32) : IVec S_ 1 :=
  let main_v0 : FVec F S2x1024x768 .f32 := Host.absf main_arg0
  let main_cst : FVec F S_ .f32 := constant S_ .f32 0x7F800000#32
  let main_v1 : FVec F S2x1024x768 .f32 := broadcastInDim S2x1024x768 ![] bcast_S_S2x1024x768 main_cst
  let main_v2 : IVec S2x1024x768 1 := cmpf .olt main_v0 main_v1
  let main_c : IVec S_ 1 := constantI S_ 1 1#1
  let main_v3 : IVec S_ 1 := (fun x v => Host.reduce IntOp.andi x v reducesTo_S2x1024x768_S_d0_1_2 h_S_) main_v2 main_c
  main_v3
-- ==== Kernel.lean ====
abbrev S2x1024x768 : Shape := ⟨3, ![2, 1024, 768]⟩
abbrev S2x128x1024 : Shape := ⟨3, ![2, 128, 1024]⟩
abbrev S2x128x768 : Shape := ⟨3, ![2, 128, 768]⟩
abbrev S1x128x256 : Shape := ⟨3, ![1, 128, 256]⟩
abbrev S1x128x128 : Shape := ⟨3, ![1, 128, 128]⟩
abbrev S128x256 : Shape := ⟨2, ![128, 256]⟩
abbrev S128x128 : Shape := ⟨2, ![128, 128]⟩
abbrev S128x128x1 : Shape := ⟨3, ![128, 128, 1]⟩
abbrev S128x128x256 : Shape := ⟨3, ![128, 128, 256]⟩

abbrev nBuf : Space → Nat
  | .hbm => 3
  | .vmem => 7
  | .smem => 0
  | _ => 0

abbrev bufTy : (tb : Table) → Fin (tcTables nBuf tb) → BufTy
  | .hbm, ⟨0, _⟩ => ⟨S2x1024x768, .f32⟩
  | .hbm, ⟨1, _⟩ => ⟨S2x128x1024, .i32⟩
  | .hbm, ⟨2, _⟩ => ⟨S2x128x768, .f32⟩
  | .local _ .vmem, ⟨0, _⟩ => ⟨S1x128x256, .f32⟩
  | .local _ .vmem, ⟨1, _⟩ => ⟨S1x128x256, .f32⟩
  | .local _ .vmem, ⟨2, _⟩ => ⟨S1x128x128, .i32⟩
  | .local _ .vmem, ⟨3, _⟩ => ⟨S1x128x128, .i32⟩
  | .local _ .vmem, ⟨4, _⟩ => ⟨S1x128x256, .f32⟩
  | .local _ .vmem, ⟨5, _⟩ => ⟨S1x128x256, .f32⟩
  | .local _ .vmem, ⟨6, _⟩ => ⟨S128x256, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_13 : BitVec 32 := 0#32
  let v25 : BitVec 1 := Scalar.cmpi .ne v24 c0_i32_13
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  shapeCasts_S128x128_S128x128x1 : S128x128.ShapeCasts S128x128x1
  broadcasts_S1x128x256_S128x128x256 : S1x128x256.Broadcasts S128x128x256
  broadcasts_S128x128x1_S128x128x256 : S128x128x1.Broadcasts S128x128x256
  reduces_S128x128x256_S128x256 : S128x128x256.Reduces [1] S128x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S2x1024x768.size a
  hwx0_0 : ∀ i : grid0.Coords, EltTy.bits .f32 = 32 ∨ (Rect.block (s := S2x1024x768) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S2x128x1024.size a
  hwx0_1 : ∀ i : grid0.Coords, EltTy.bits .i32 = 32 ∨ (Rect.block (s := S2x128x1024) S1x128x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S2x128x768.size a
  hwx0_2 : ∀ i : grid0.Coords, EltTy.bits .f32 = 32 ∨ (Rect.block (s := S2x128x768) S1x128x256.size (cc0_transform_2 i) (hinb0_2 i)).WholeWords (EltTy.packing .f32)

variable [Facts₀]

abbrev win0_0 : Pipeline.Window sig grid0 :=
  Pipeline.Window.ofSpec (Memref.whole main_arg0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x1024x768 : Shape := ⟨3, ![2, 1024, 768]⟩
abbrev S2x128x1024 : Shape := ⟨3, ![2, 128, 1024]⟩
abbrev S_ : Shape := ⟨0, ![]⟩
abbrev S2x1x1024x768 : Shape := ⟨4, ![2, 1, 1024, 768]⟩
abbrev S2x128x1024x1 : Shape := ⟨4, ![2, 128, 1024, 1]⟩
abbrev S2x128x1024x768 : Shape := ⟨4, ![2, 128, 1024, 768]⟩
abbrev S2x128x768 : Shape := ⟨3, ![2, 128, 768]⟩

abbrev nBuf : Space → Nat
  | .hbm => 17
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x128x1024, .i32⟩
  | .hbm, ⟨2, _⟩ => ⟨S_, .i32⟩
  | .hbm, ⟨3, _⟩ => ⟨S2x128x1024, .i32⟩
  | .hbm, ⟨4, _⟩ => ⟨S2x128x1024, .i1⟩
  | .hbm, ⟨5, _⟩ => ⟨S_, .f32⟩
  | .hbm, ⟨6, _⟩ => ⟨S_, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x1x1024x768, .f32⟩
  | .hbm, ⟨11, _⟩ => ⟨S2x128x1024x1, .f32⟩
  | .hbm, ⟨12, _⟩ => ⟨S2x128x1024x768, .f32⟩
  | .hbm, ⟨13, _⟩ => ⟨S2x128x1024x768, .f32⟩
  | .hbm, ⟨14, _⟩ => ⟨S2x128x1024x768, .f32⟩
  | .hbm, ⟨15, _⟩ => ⟨S_, .f32⟩
  | .hbm, ⟨16, _⟩ => ⟨S2x128x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  bcast_S_S2x128x1024 : S_.BroadcastsInDim S2x128x1024 (![] : Fin 0 → Fin S2x128x1024.rank)
  bcast_S2x1024x768_S2x1x1024x768_0_2_3 : S2x1024x768.BroadcastsInDim S2x1x1024x768 (![0, 2, 3] : Fin 3 → Fin S2x1x1024x768.rank)
  bcast_S2x128x1024_S2x128x1024x1_0_1_2 : S2x128x1024.BroadcastsInDim S2x128x1024x1 (![0, 1, 2] : Fin 3 → Fin S2x128x1024x1.rank)
  bcast_S2x1x1024x768_S2x128x1024x768_0_1_2_3 : S2x1x1024x768.BroadcastsInDim S2x128x1024x768 (![0, 1, 2, 3] : Fin 4 → Fin S2x128x1024x768.rank)
  bcast_S2x128x1024x1_S2x128x1024x768_0_1_2_3 : S2x128x1024x1.BroadcastsInDim S2x128x1024x768 (![0, 1, 2, 3] : Fin 4 → Fin S2x128x1024x768.rank)
  reducesTo_S2x128x1024x768_S2x128x768_d2 : S2x128x1024x768.ReducesTo [2] S2x128x768
  h_S_ : 0 < S_.numel

variable [Facts₀]

class Facts : Prop extends Facts₀ where

variable [Facts]
-- ==== Proof.LibSupBlocks.lean ====
/-
  General lemmas about a finite supremum in a semilattice with a least element.

  * a supremum over the first `n` naturals is the supremum over `Fin n` (`sup_range_eq_sup_univ`);
  * a supremum over the first `a * b` naturals, regrouped as the supremum over `a` blocks of the supremum
    over the `b` positions `k * b + s` inside block `k` (`sup_range_blocks`);
  * in a linear order, folding `max` from the least element is the supremum (`fold_max_bot_eq_sup`);
  * a fold over a run of grid points that starts at `Z ⊔ M b` and joins `M n` to what the point before
    left, read after `j` steps as `Z` joined with the supremum of `M b, …, M (b + j)` (`accAt_sup_apply`).
-/
import Idealize.ShloMosaic.Lib.Pipeline.Value

namespace LibSupBlocks

open Finset Idealize.ShloMosaic

variable {β : Type*} [SemilatticeSup β] [OrderBot β]

/-- The supremum of `f 0, …, f (n - 1)` is the supremum over `Fin n` of `f` at the value. -/
theorem sup_range_eq_sup_univ (n : ℕ) (f : ℕ → β) :
    (range n).sup f = (univ : Finset (Fin n)).sup (fun s => f s.val) := by
  apply le_antisymm
  · exact Finset.sup_le fun s hs =>
      Finset.le_sup (f := fun k : Fin n => f k.val) (mem_univ (⟨s, mem_range.1 hs⟩ : Fin n))
  · exact Finset.sup_le fun k _ => Finset.le_sup (f := f) (mem_range.2 k.isLt)

/-- Every natural below `a * b` is `k * b + s` for exactly one block `k < a` and one position `s < b`, so the
    supremum of `f` below `a * b` is the supremum, over the blocks, of each block's supremum. -/
theorem sup_range_blocks (a b : ℕ) (f : ℕ → β) :
    (range a).sup (fun k => (range b).sup (fun s => f (k * b + s))) = (range (a * b)).sup f := by
  apply le_antisymm
  · refine Finset.sup_le fun k hk => Finset.sup_le fun s hs => Finset.le_sup (f := f) (mem_range.2 ?_)
    have hk' := mem_range.1 hk
    have hs' := mem_range.1 hs
    calc k * b + s < k * b + b := by omega
      _ = (k + 1) * b := (Nat.succ_mul k b).symm
      _ ≤ a * b := Nat.mul_le_mul_right b hk'
  · refine Finset.sup_le fun n hn => ?_
    have hn' := mem_range.1 hn
    have hb : 0 < b := by
      rcases Nat.eq_zero_or_pos b with h | h
      · subst h; simp at hn'
      · exact h
    have hq : n / b < a := (Nat.div_lt_iff_lt_mul hb).2 hn'
    have hr : n % b < b := Nat.mod_lt n hb
    have e : n / b * b + n % b = n := by rw [Nat.mul_comm]; exact Nat.div_add_mod n b
    calc f n = f (n / b * b + n % b) := by rw [e]
      _ ≤ (range b).sup (fun s => f (n / b * b + s)) :=
          Finset.le_sup (f := fun s => f (n / b * b + s)) (mem_range.2 hr)
      _ ≤ _ := Finset.le_sup (f := fun k => (range b).sup (fun s => f (k * b + s))) (mem_range.2 hq)

/-- A run of points from `b`: the first point leaves `Z ⊔ M b`, each of the next `e` points joins its own `M n`
    to what the point before left.  After `j ≤ e` steps the run holds `Z` joined with the supremum of
    `M b, …, M (b + j)`, index by index. -/
theorem accAt_sup_apply {N : ℕ} {ι : Type*} (a : (n : ℕ) → n < N → ι → β)
    (g : (n : ℕ) → n < N → (ι → β) → ι → β) (Z : ι → β) (M : ℕ → ι → β) (b e : ℕ)
    (ha : ∀ (h : b < N) (i : ι), a b h i = Z i ⊔ M b i)
    (hg : ∀ (n : ℕ) (h : n < N) (acc : ι → β) (i : ι), b < n → n ≤ b + e → g n h acc i = acc i ⊔ M n i) :
    ∀ (j : ℕ), j ≤ e → ∀ (h : b + j < N) (i : ι),
      Pipeline.accAt a g b j h i = Z i ⊔ (range (j + 1)).sup (fun s => M (b + s) i)
  | 0, _, h, i => by
    rw [Pipeline.accAt_zero, Finset.range_one, Finset.sup_singleton, ha]; rfl
  | j + 1, hj, h, i => by
    rw [Pipeline.accAt_succ, hg (b + (j + 1)) h _ i (by omega) (by omega),
      accAt_sup_apply a g Z M b e ha hg j (Nat.le_of_succ_le hj) (Nat.lt_of_succ_lt h) i,
      Finset.range_add_one (n := j + 1), Finset.sup_insert, sup_assoc, sup_comm (M (b + (j + 1)) i)]

/-- In a linear order with a least element, folding `max` from the least element over a finite set is the
    set's supremum. -/
theorem fold_max_bot_eq_sup {ι γ : Type*} [LinearOrder γ] [OrderBot γ] (s : Finset ι) (f : ι → γ) :
    s.fold max ⊥ f = s.sup f := rfl

end LibSupBlocks
-- ==== Proof.MaxSpec.lean ====
/-
  The function both programs compute, stated once over literal shapes.

  For a batch `b`, a mention `p` and a feature column `j`, the result is the largest, over the 1024 token
  positions `s`, of `h[b, s, j] + pen[b, p, s]`, where the penalty `pen[b, p, s]` is one fixed finite negative
  number when the mask entry `mask[b, p, s]` is zero and zero otherwise.  The largest of no numbers is `-∞`.

  Coordinates are natural numbers here, so that a tile's position inside the arrays is plain arithmetic: token
  position `k * 128 + s` is position `s` of token tile `k`, feature column `u * 256 + l` is lane `l` of feature
  tile `u`.  An array read outside its extents (never consulted) is `-∞`, a mask word read outside is zero.
-/
import Idealize.ShloMosaic.PureOps.Ideal
import Idealize.ShloMosaic.Lib.ValueIdx
import proofs.«175286_j1795296329896_1_alg».proof.Proof.LibSupBlocks

noncomputable section

namespace Cert.MaxSpec

open Finset Idealize.ShloMosaic Idealize.ShloMosaic.ValueIdx

/-- The activations `[2, 1024, 768]`, the masks `[2, 128, 1024]`, the result `[2, 128, 768]`. -/
abbrev SH : Shape := ⟨3, ![2, 1024, 768]⟩
abbrev SM : Shape := ⟨3, ![2, 128, 1024]⟩
abbrev SO : Shape := ⟨3, ![2, 128, 768]⟩

/-- The penalty of a mask word: the finite negative number `-1.0000000150474662e30` (as its f32 word) where the
    word is zero, `0` elsewhere. -/
def pen (w : BitVec 32) : EReal :=
  Scalar.select (IntOp.cmpi .eq w 0#32) (Ideal.ofBits .f32 0xF149F2CA#32) (Ideal.ofBits .f32 0x00000000#32)

/-- The f32 word `0xFF800000` is `-∞`, the least extended real. -/
theorem neg_inf : Ideal.ofBits .f32 0xFF800000#32 = (⊥ : EReal) := by
  simp [Ideal.ofBits, Ideal.ieee]

/-- `h[b, s, j]` at natural coordinates. -/
def hAt (x : SH.Idx → EReal) (b s j : ℕ) : EReal :=
  if hh : b < 2 ∧ s < 1024 ∧ j < 768 then x (ix3 ⟨b, hh.1⟩ ⟨s, hh.2.1⟩ ⟨j, hh.2.2⟩) else ⊥

/-- `mask[b, p, s]` at natural coordinates. -/
def mAt (y : SM.Idx → BitVec 32) (b p s : ℕ) : BitVec 32 :=
  if hh : b < 2 ∧ p < 128 ∧ s < 1024 then y (ix3 ⟨b, hh.1⟩ ⟨p, hh.2.1⟩ ⟨s, hh.2.2⟩) else 0#32

/-- An entry of the activations is `hAt` at its coordinates. -/
theorem hAt_of (x : SH.Idx → EReal) (i : SH.Idx) (b s j : ℕ) (h0 : (i 0).val = b) (h1 : (i 1).val = s)
    (h2 : (i 2).val = j) : x i = hAt x b s j := by
  subst h0 h1 h2
  unfold hAt
  rw [dif_pos ⟨(i 0).isLt, (i 1).isLt, (i 2).isLt⟩]
  exact congrArg x (eq_ix3 i)

/-- An entry of the masks is `mAt` at its coordinates. -/
theorem mAt_of (y : SM.Idx → BitVec 32) (i : SM.Idx) (b p s : ℕ) (h0 : (i 0).val = b) (h1 : (i 1).val = p)
    (h2 : (i 2).val = s) : y i = mAt y b p s := by
  subst h0 h1 h2
  unfold mAt
  rw [dif_pos ⟨(i 0).isLt, (i 1).isLt, (i 2).isLt⟩]
  exact congrArg y (eq_ix3 i)

/-- The number maximised over the token positions `s`: `h[b, s, j] + pen[b, p, s]`. -/
def term (x : SH.Idx → EReal) (y : SM.Idx → BitVec 32) (b p j s : ℕ) : EReal :=
  hAt x b s j + pen (mAt y b p s)

/-- THE RESULT: at `(b, p, j)` the largest term over all 1024 token positions. -/
def G (x : SH.Idx → EReal) (y : SM.Idx → BitVec 32) : SO.Idx → EReal :=
  fun i => (range 1024).sup (term x y (i 0).val (i 1).val (i 2).val)

/-- What grid point `n` of the `2 × 3 × 8` grid (batch `n / 24`, feature tile `n / 8 % 3`, token tile `n % 8`)
    contributes at entry `(p, l)` of its `128 × 256` tile: the largest term over the 128 positions of its token
    tile. -/
def tileMax (x : SH.Idx → EReal) (y : SM.Idx → BitVec 32) (n : ℕ) (i : (⟨2, ![128, 256]⟩ : Shape).Idx) : EReal :=
  (range 128).sup (fun s => term x y (n / 24) (i 0).val (n / 8 % 3 * 256 + (i 1).val) (n % 8 * 128 + s))

/-- The eight points `8 q, …, 8 q + 7` share their batch `q / 3` and feature tile `q % 3` and walk the eight token
    tiles; `-∞` joined with their contributions is the largest term over all `8 · 128 = 1024` positions. -/
theorem run_sup (x : SH.Idx → EReal) (y : SM.Idx → BitVec 32) (q : ℕ) (i : (⟨2, ![128, 256]⟩ : Shape).Idx) :
    (⊥ : EReal) ⊔ (range 8).sup (fun k => tileMax x y (8 * q + k) i)
      = (range 1024).sup (term x y (q / 3) (i 0).val (q % 3 * 256 + (i 1).val)) := by
  rw [bot_sup_eq]
  refine Eq.trans ?_ (LibSupBlocks.sup_range_blocks 8 128 (term x y (q / 3) (i 0).val (q % 3 * 256 + (i 1).val)))
  refine Finset.sup_congr rfl fun k hk => ?_
  have hk' := mem_range.1 hk
  unfold tileMax
  have e1 : (8 * q + k) / 24 = q / 3 := by omega
  have e2 : (8 * q + k) / 8 % 3 = q % 3 := by omega
  have e3 : (8 * q + k) % 8 = k := by omega
  rw [e1, e2, e3]

end Cert.MaxSpec

end
-- ==== Proof.RefIsSpec.lean ====
/-
  The reference computes the specification.

  Its last operation is a maximum-reduction over the token axis of the `[2, 128, 1024, 768]` array whose entry
  `(b, p, s, j)` is `h[b, s, j] + pen[b, p, s]`, started from `-∞`.  At a result index `(b, p, j)` the reduction is
  the fold of `max` over the 1024 indices `(b, p, s, j)`, which is the supremum of the terms.
-/
import proofs.«175286_j1795296329896_1_alg».proof.Proof.Gen.ReferenceIdeal.Read
import proofs.«175286_j1795296329896_1_alg».proof.Proof.MaxSpec
import Idealize.ShloMosaic.PureOps.Ideal.Laws

noncomputable section

namespace Cert.ReferenceIdeal.RefValue

open Finset Idealize.ShloMosaic Idealize.ShloMosaic.ValueIdx Cert.ReferenceIdeal Cert.ReferenceIdeal.Gen Cert.ReferenceIdeal.Read
  Cert.MaxSpec

/-- The reduced axis is axis 2 of four. -/
theorem hRed : S2x128x1024x768.Reduces [2] S2x128x768 := by decide

/-- The entry of the array under the reduction at `(b, p, s, j)`, the index over `(b, p, j)` with token position `s`
    inserted: the term at `s`. -/
theorem operand_at (x0 : (⟨S2x1024x768, .f32⟩ : BufTy).Contents (Elt Ideal))
    (x1 : (⟨S2x128x1024, .i32⟩ : BufTy).Contents (Elt Ideal)) (i : S2x128x768.Idx) (k : Fin 1024) :
    val_main_v7 (F := Ideal) x0 x1 (hRed.lift i k) = term x0 x1 (i 0).val (i 1).val (i 2).val k.val := by
  rw [val_main_v7_apply, val_main_v5_apply, val_main_v3_apply, val_main_v6_apply, val_main_v4_apply,
    val_main_v2_apply, val_main_v1_apply, val_main_v0_apply, val_main_c_apply, val_main_call0_v0_apply,
    val_main_cst_apply, val_main_call0_v1_apply, val_main_cst_0_apply]
  rw [hAt_of x0 (idx_main_v3 (idx_main_v5 (hRed.lift i k))) (i 0).val k.val (i 2).val rfl rfl rfl,
    mAt_of x1 (idx_main_v4 (idx_main_v6 (hRed.lift i k))) (i 0).val (i 1).val k.val rfl rfl rfl]
  rfl

/-- The reference's result is the specification of its two arguments. -/
theorem ref_eq (x0 : (⟨S2x1024x768, .f32⟩ : BufTy).Contents (Elt Ideal))
    (x1 : (⟨S2x128x1024, .i32⟩ : BufTy).Contents (Elt Ideal)) :
    val_main_v8 (F := Ideal) x0 x1 = G x0 x1 := by
  funext i
  unfold val_main_v8
  rw [Host.reduce_eq_fold_single FloatOps.maximumf _ _ reducesTo_S2x128x1024x768_S2x128x768_d2 hRed h_S_ i,
    val_main_cst_1_apply]
  show (Finset.univ : Finset (Fin 1024)).fold max (Ideal.ofBits .f32 0xFF800000#32) _ = _
  rw [neg_inf]
  refine (LibSupBlocks.fold_max_bot_eq_sup _ _).trans ?_
  unfold G
  rw [LibSupBlocks.sup_range_eq_sup_univ]
  exact Finset.sup_congr rfl fun k _ => operand_at x0 x1 i k

end Cert.ReferenceIdeal.RefValue

end
-- ==== Proof.TileValue.lean ====
/-
  What one grid point computes, entry by entry.

  The body's second store writes, at entry `(p, l)` of the `128 × 256` running-maximum tile, the larger of what the
  tile held there and the largest, over the 128 token positions `s` of the point's token tile, of
  `hblk[0, s, l] + pen (mblk[0, p, s])` — `hblk` the point's `[1, 128, 256]` block of the activations, `mblk` its
  `[1, 128, 128]` block of the masks.  The first store (first point of a run only) fills the tile with `-∞`; the third
  (last point of a run only) copies the tile into the `[1, 128, 256]` output block.
-/
import proofs.«175286_j1795296329896_1_alg».proof.Proof.Gen.KernelIdeal.Skeleton
import proofs.«175286_j1795296329896_1_alg».proof.Proof.MaxSpec
import Idealize.ShloMosaic.PureOps.Ideal.Laws
import Idealize.ShloMosaic.Lib.Pipeline.Value
import Idealize.ShloMosaic.Lib.ValueLayout

noncomputable section

namespace Cert.KernelIdeal.TileValue

open Finset Idealize.ShloMosaic Idealize.ShloMosaic.ValueIdx Cert.KernelIdeal Cert.KernelIdeal.Gen Cert.MaxSpec

variable {α : Type}

/-- The `[1, 128, 256]` block broadcast along a new leading axis of 128: at `(p, s, l)` the block at `(0, s, l)`. -/
theorem bcast_rows_apply (v : S1x128x256.Idx → α) (h : S1x128x256.Broadcasts S128x128x256) (p s : Fin 128) (l : Fin 256) :
    broadcastTo S128x128x256 v h (ix3 p s l) = v (ix3 (0 : Fin 1) s l) :=
  broadcastTo_apply v h (ix3 p s l) (ix3 (0 : Fin 1) s l) fun a => match a with
    | ⟨0, _⟩ => by show (0 : ℕ) = if (1 : ℕ) = 1 then 0 else p.val; rw [if_pos rfl]
    | ⟨1, _⟩ => by show s.val = if (128 : ℕ) = 1 then 0 else s.val; rw [if_neg (by decide)]
    | ⟨2, _⟩ => by show l.val = if (256 : ℕ) = 1 then 0 else l.val; rw [if_neg (by decide)]

/-- The `[128, 128, 1]` column array broadcast along its last axis to 256 lanes: at `(p, s, l)` the array at
    `(p, s, 0)`. -/
theorem bcast_lanes_apply (v : S128x128x1.Idx → α) (h : S128x128x1.Broadcasts S128x128x256) (p s : Fin 128) (l : Fin 256) :
    broadcastTo S128x128x256 v h (ix3 p s l) = v (ix3 p s (0 : Fin 1)) :=
  broadcastTo_apply v h (ix3 p s l) (ix3 p s (0 : Fin 1)) fun a => match a with
    | ⟨0, _⟩ => by show p.val = if (128 : ℕ) = 1 then 0 else p.val; rw [if_neg (by decide)]
    | ⟨1, _⟩ => by show s.val = if (128 : ℕ) = 1 then 0 else s.val; rw [if_neg (by decide)]
    | ⟨2, _⟩ => by show (0 : ℕ) = if (1 : ℕ) = 1 then 0 else l.val; rw [if_pos rfl]

/-- A `[128, 128]` matrix cast to `[128, 128, 1]` reads, at `(p, s, 0)`, the matrix at `(p, s)`. -/
theorem cast_col_apply (v : S128x128.Idx → α) (h : S128x128.ShapeCasts S128x128x1) (p s : Fin 128) (u : Fin 1) :
    shapeCast S128x128x1 v h (ix3 p s u) = v (ix2 p s) :=
  shapeCast_apply v h (ix3 p s u) (ix2 p s) (by
    have hu : u.val = 0 := by omega
    rw [Shape.rowMajor_val_three, Shape.rowMajor_val_two]
    show p.val * 128 + s.val = (p.val * 128 + s.val) * 1 + u.val
    rw [hu, Nat.mul_one, Nat.add_zero])

/-- The array under the lane maximum at `(p, s, l)`: the activation block at `(0, s, l)` plus the penalty of the mask
    block's word at `(0, p, s)`. -/
theorem summand_apply (x1 : Vec Ideal S1x128x128 .i32) (x0 : Vec Ideal S1x128x256 .f32)
    (hc1 : S1x128x256.ShapeCasts S128x256) (hc2 : S128x256.ShapeCasts S1x128x256)
    (hc3 : S1x128x128.ShapeCasts S128x128) (hc4 : S128x128.ShapeCasts S128x128x1)
    (hb1 : S1x128x256.Broadcasts S128x128x256) (hb2 : S128x128x1.Broadcasts S128x128x256)
    (p s : Fin 128) (l : Fin 256) :
    addf (F := Ideal) (broadcastTo S128x128x256 (shapeCast S1x128x256 (shapeCast S128x256 x0 hc1) hc2) hb1)
      (broadcastTo S128x128x256 (shapeCast S128x128x1
        (select (cmpi .eq (shapeCast S128x128 x1 hc3) (broadcast S128x128 0#32))
          (broadcast S128x128 (Scalar.ofBits (F := Ideal) .f32 0xF149F2CA#32))
          (broadcast S128x128 (Scalar.ofBits (F := Ideal) .f32 0x00000000#32))) hc4) hb2) (ix3 p s l)
      = x0 (ix3 (0 : Fin 1) s l) + pen (x1 (ix3 (0 : Fin 1) p s)) := by
  show (_ : EReal) + _ = _
  refine congrArg₂ (· + ·) ?_ ?_
  · refine (bcast_rows_apply _ hb1 p s l).trans ?_
    exact congrFun (shapeCast_shapeCast x0 hc1 hc2) _
  · refine (bcast_lanes_apply _ hb2 p s l).trans ?_
    refine (cast_col_apply _ hc4 p s 0).trans ?_
    show Scalar.select (IntOp.cmpi .eq (shapeCast S128x128 x1 hc3 (ix2 p s)) 0#32) _ _ = _
    rw [shapeCast_1ab_ab_apply x1 hc3 p s]
    rfl

/-- The index over `(p, l)` with token position `s` inserted on the reduced axis is `(p, s, l)`. -/
theorem lift_eq (p s : Fin 128) (l : Fin 256) :
    reduces_S128x128x256_S128x256.lift (ix2 p l) s = ix3 p s l :=
  funext fun a => Fin.ext (by match a with | ⟨0, _⟩ => rfl | ⟨1, _⟩ => rfl | ⟨2, _⟩ => rfl)

/-- A maximum over the middle axis of a `[128, 128, 256]` array started from `-∞`: at `(p, l)` the supremum over `s`
    of the array at `(p, s, l)`. -/
theorem lane_max_apply (src : FVec Ideal S128x128x256 .f32) (h : S128x128x256.Reduces [1] S128x256)
    (hφ : FKind.Formats .f32) (hacc : (0xFF800000#32 : BitVec 32) = FKind.maximumf.neutral .f32 hφ)
    (hl : ∀ (p s : Fin 128) (l : Fin 256), h.lift (ix2 p l) s = ix3 p s l) (p : Fin 128) (l : Fin 256) :
    multiReduction .maximumf [1] S128x256 src 0xFF800000#32 h hφ hacc (ix2 p l)
      = (univ : Finset (Fin 128)).sup (fun s => src (ix3 p s l)) := by
  refine (Ideal.multiReduction_maximumf_single src 0xFF800000#32 h hφ hacc (ix2 p l)).trans ?_
  show (univ : Finset (Fin 128)).fold max (Ideal.ofBits .f32 0xFF800000#32) _ = _
  rw [neg_inf]
  refine (LibSupBlocks.fold_max_bot_eq_sup _ _).trans ?_
  exact Finset.sup_congr rfl fun s _ => congrArg src (hl p s l)

/-- THE SECOND STORE at entry `(p, l)`: the larger of the running maximum there and the point's largest term. -/
theorem pay2_apply (x1 : Vec Ideal S1x128x128 .i32) (x0 : Vec Ideal S1x128x256 .f32) (acc : Vec Ideal S128x256 .f32)
    (p : Fin 128) (l : Fin 256) :
    k0_pay2 (F := Ideal) x1 x0 acc (ix2 p l)
      = acc (ix2 p l) ⊔ (univ : Finset (Fin 128)).sup
          (fun s => x0 (ix3 (0 : Fin 1) s l) + pen (x1 (ix3 (0 : Fin 1) p s))) := by
  unfold k0_pay2
  dsimp only
  refine (congrFun (shapeCast_self _ _) (ix2 p l)).trans ?_
  show max (acc (ix2 p l)) _ = max (acc (ix2 p l)) _
  refine congrArg (max (acc (ix2 p l))) ?_
  refine (lane_max_apply _ _ _ _ lift_eq p l).trans ?_
  exact Finset.sup_congr rfl fun s _ => summand_apply x1 x0 _ _ _ _ _ _ p s l

/-- THE FIRST STORE: `-∞` at every entry. -/
theorem pay1_apply (i : S128x256.Idx) : k0_pay1 (F := Ideal) i = (⊥ : EReal) := by
  unfold k0_pay1
  refine (congrFun (shapeCast_self _ _) i).trans ?_
  exact neg_inf

/-- THE THIRD STORE at `(0, p, l)` of the output block: the running-maximum tile at `(p, l)`. -/
theorem pay3_apply (acc : Vec Ideal S128x256 .f32) (u : Fin 1) (p : Fin 128) (l : Fin 256) :
    k0_pay3 (F := Ideal) acc (ix3 u p l) = acc (ix2 p l) := by
  unfold k0_pay3
  exact shapeCast_ab_1ab_apply acc _ u p l

end Cert.KernelIdeal.TileValue

end
-- ==== Proof.Pieces.lean ====
/-
  What each control case of the body leaves behind, as values.

  A grid point is the FIRST of its run of eight (token tile 0), a MIDDLE one, or the LAST (token tile 7).  In every
  case the running-maximum tile ends at the body's second store applied to the point's mask block, its activation
  block and what the tile held before — which, at a first point, is what the first store has just written.  At a
  last point the output block ends at the third store applied to that new tile.  The frame's run found these
  stores as lists of covering pieces; reading a list back gives the stores' values, the loads inside them being reads
  of whole buffers.
-/
import proofs.«175286_j1795296329896_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A MIDDLE point: the tile ends at the second store over what it held. -/
theorem tile_mid (c : Dev nD) (i : grid0.Coords) (a3 : Memref sig .tc .vmem S1x128x256 .f32) (h3 : a3.IsWhole)
    (a4 : Memref sig .tc .vmem S1x128x128 .i32) (h4 : a4.IsWhole) (a5 : Memref sig .tc .vmem S1x128x256 .f32)
    (h5 : a5.IsWhole) (a6 : Memref sig .tc .vmem S128x256 .f32) (h6 : a6.IsWhole) (hc0 : ¬cond0_0 i) (hc1 : ¬cond0_1 i)
    (x0 : Vec F S1x128x256 .f32) (x1 : Vec F S1x128x128 .i32) (xs0 : Vec F S128x256 .f32) :
    sout0_B_0 c i a3 h3 a4 h4 a5 h5 a6 h6 hc0 hc1 x0 x1 xs0 = k0_pay2 x1 x0 xs0 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero hz2]
  simp only [View.readAt_eq_ld, h3.read_unread, h4.read_unread, h6.read_unread,
    View.ld_unit_zero (S := S1x128x256) hz3, View.ld_unit_zero (S := S1x128x128) hz3,
    View.ld_unit_zero (S := S128x256) hz2]

/-- A FIRST point: the tile ends at the second store over the first store's fill. -/
theorem tile_first (c : Dev nD) (i : grid0.Coords) (a3 : Memref sig .tc .vmem S1x128x256 .f32) (h3 : a3.IsWhole)
    (a4 : Memref sig .tc .vmem S1x128x128 .i32) (h4 : a4.IsWhole) (a5 : Memref sig .tc .vmem S1x128x256 .f32)
    (h5 : a5.IsWhole) (a6 : Memref sig .tc .vmem S128x256 .f32) (h6 : a6.IsWhole) (hc0 : cond0_0 i) (hc1 : ¬cond0_1 i)
    (x0 : Vec F S1x128x256 .f32) (x1 : Vec F S1x128x128 .i32) :
    sout0_A_0 c i a3 h3 a4 h4 a5 h5 a6 h6 hc0 hc1 x0 x1 = k0_pay2 x1 x0 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S128x256) hz2, View.readCov_unit_zero (S := S128x256) _ hz2]
  simp only [View.readAt_eq_ld, h3.read_unread, h4.read_unread,
    View.ld_unit_zero (S := S1x128x256) hz3, View.ld_unit_zero (S := S1x128x128) hz3]

/-- A LAST point: the tile ends at the second store over what it held. -/
theorem tile_last (c : Dev nD) (i : grid0.Coords) (a3 : Memref sig .tc .vmem S1x128x256 .f32) (h3 : a3.IsWhole)
    (a4 : Memref sig .tc .vmem S1x128x128 .i32) (h4 : a4.IsWhole) (a5 : Memref sig .tc .vmem S1x128x256 .f32)
    (h5 : a5.IsWhole) (a6 : Memref sig .tc .vmem S128x256 .f32) (h6 : a6.IsWhole) (hc0 : ¬cond0_0 i) (hc1 : cond0_1 i)
    (x0 : Vec F S1x128x256 .f32) (x1 : Vec F S1x128x128 .i32) (xs0 : Vec F S128x256 .f32) :
    sout0_C_0 c i a3 h3 a4 h4 a5 h5 a6 h6 hc0 hc1 x0 x1 xs0 = k0_pay2 x1 x0 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz2]
  simp only [View.readAt_eq_ld, h3.read_unread, h4.read_unread, h6.read_unread,
    View.ld_unit_zero (S := S1x128x256) hz3, View.ld_unit_zero (S := S1x128x128) hz3,
    View.ld_unit_zero (S := S128x256) hz2]

/-- A LAST point: the output block ends at the third store of the tile the point leaves. -/
theorem out_last (c : Dev nD) (i : grid0.Coords) (a3 : Memref sig .tc .vmem S1x128x256 .f32) (h3 : a3.IsWhole)
    (a4 : Memref sig .tc .vmem S1x128x128 .i32) (h4 : a4.IsWhole) (a5 : Memref sig .tc .vmem S1x128x256 .f32)
    (h5 : a5.IsWhole) (a6 : Memref sig .tc .vmem S128x256 .f32) (h6 : a6.IsWhole) (hc0 : ¬cond0_0 i) (hc1 : cond0_1 i)
    (x0 : Vec F S1x128x256 .f32) (x1 : Vec F S1x128x128 .i32) (xs0 : Vec F S128x256 .f32) :
    out0_C_2 c i a3 h3 a4 h4 a5 h5 a6 h6 hc0 hc1 x0 x1 xs0 = k0_pay3 (k0_pay2 x1 x0 xs0) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz3, View.readCov_unit_zero (S := S128x256) _ hz2]
  simp only [View.readAt_eq_ld, h3.read_unread, h4.read_unread, h6.read_unread,
    View.ld_unit_zero (S := S1x128x256) hz3, View.ld_unit_zero (S := S1x128x128) hz3,
    View.ld_unit_zero (S := S128x256) hz2]

end Cert.KernelIdeal.Pieces

end
-- ==== Proof.RunMax.lean ====
/-
  The running-maximum tile over a run of eight grid points.

  Grid point `t` (of `48 = 2 · 3 · 8`) works on batch `t / 24`, feature tile `t / 8 % 3` and token tile `t % 8`: its
  activation block is rows `(t % 8) · 128 …` and columns `(t / 8 % 3) · 256 …` of batch `t / 24`, its mask block is all
  128 mentions at token positions `(t % 8) · 128 …` of that batch.  So one point joins, entry by entry, its own
  largest term (`tileMax`) to the tile, and after the point at offset `k` of its run the tile holds `-∞` joined with
  the contributions of the run's points `0 … k`.
-/
import proofs.«175286_j1795296329896_1_alg».proof.Proof.Gen.KernelIdeal.Value
import proofs.«175286_j1795296329896_1_alg».proof.Proof.TileValue
import proofs.«175286_j1795296329896_1_alg».proof.Proof.Pieces

noncomputable section

namespace Cert.KernelIdeal.RunMax

open Finset Idealize.ShloMosaic Idealize.ShloMosaic.TcCoe Idealize.SL.Sem Idealize.ShloMosaic.ValueIdx
  Cert.KernelIdeal Cert.KernelIdeal.Gen Cert.MaxSpec Cert.KernelIdeal.TileValue

variable (m : (ℓ : Loc nD τ sig) → Buf (Elt Ideal) ℓ)

/-- The three windows' block indices at point `t`, decided over the grid. -/
theorem idx_facts : ∀ t : Fin cfg0.N,
    win0_0.index t (0 : Fin 3) = t.val / 24 ∧ win0_0.index t (1 : Fin 3) = t.val % 8
    ∧ win0_0.index t (2 : Fin 3) = t.val / 8 % 3
    ∧ win0_1.index t (0 : Fin 3) = t.val / 24 ∧ win0_1.index t (1 : Fin 3) = 0
    ∧ win0_1.index t (2 : Fin 3) = t.val % 8
    ∧ win0_2.index t (0 : Fin 3) = t.val / 24 ∧ win0_2.index t (1 : Fin 3) = 0
    ∧ win0_2.index t (2 : Fin 3) = t.val / 8 % 3 :=
  (by decide +kernel : ∀ t : Fin grid0.N, _)

/-- The activations and the masks as the kernel is launched with them. -/
abbrev X (c : Dev nD) : SH.Idx → EReal := m ((c : Thread nD τ).loc main_arg0)
abbrev Y (c : Dev nD) : SM.Idx → BitVec 32 := m ((c : Thread nD τ).loc main_arg1)

/-- Entry `(0, s, l)` of point `t`'s activation block. -/
theorem hblk_at (c : Dev nD) (t : Fin cfg0.N) (s : Fin 128) (l : Fin 256) :
    (iblk m c 0 t : Vec Ideal S1x128x256 .f32) (ix3 (0 : Fin 1) s l)
      = hAt (X m c) (t.val / 24) (t.val % 8 * 128 + s.val) (t.val / 8 % 3 * 256 + l.val) := by
  obtain ⟨e0, e1, e2, -⟩ := idx_facts t
  unfold iblk
  rw [View.read_apply]
  show V m c main_arg0 (((cfg0.win 0).blk t).view.emb (ix3 (0 : Fin 1) s l)) = _
  refine hAt_of _ _ _ _ _ ?_ ?_ ?_
  · show win0_0.index t (0 : Fin 3) * 1 + 1 * 0 = _; omega
  · show win0_0.index t (1 : Fin 3) * 128 + 1 * s.val = _; omega
  · show win0_0.index t (2 : Fin 3) * 256 + 1 * l.val = _; omega

/-- Entry `(0, p, s)` of point `t`'s mask block. -/
theorem mblk_at (c : Dev nD) (t : Fin cfg0.N) (p s : Fin 128) :
    (iblk m c 1 t : Vec Ideal S1x128x128 .i32) (ix3 (0 : Fin 1) p s)
      = mAt (Y m c) (t.val / 24) p.val (t.val % 8 * 128 + s.val) := by
  obtain ⟨-, -, -, e0, e1, e2, -⟩ := idx_facts t
  unfold iblk
  rw [View.read_apply]
  show V m c main_arg1 (((cfg0.win 1).blk t).view.emb (ix3 (0 : Fin 1) p s)) = _
  refine mAt_of _ _ _ _ _ ?_ ?_ ?_
  · show win0_1.index t (0 : Fin 3) * 1 + 1 * 0 = _; omega
  · show win0_1.index t (1 : Fin 3) * 128 + 1 * p.val = _; omega
  · show win0_1.index t (2 : Fin 3) * 128 + 1 * s.val = _; omega

/-- ONE POINT'S STEP: the second store over the point's blocks joins the point's contribution to the tile. -/
theorem step_at (c : Dev nD) (t : Fin cfg0.N) (acc : Vec Ideal S128x256 .f32) (i : S128x256.Idx) :
    k0_pay2 (F := Ideal) (iblk m c 1 t) (iblk m c 0 t) acc i = acc i ⊔ tileMax (X m c) (Y m c) t.val i := by
  obtain ⟨p, l, rfl⟩ : ∃ (p : Fin 128) (l : Fin 256), i = ix2 p l := ⟨i 0, i 1, eq_ix2 i⟩
  refine (pay2_apply (iblk m c 1 t) (iblk m c 0 t) acc p l).trans ?_
  refine congrArg (fun z => acc (ix2 p l) ⊔ z) ?_
  unfold tileMax
  rw [LibSupBlocks.sup_range_eq_sup_univ]
  refine Finset.sup_congr rfl fun s _ => ?_
  unfold term
  rw [hblk_at m c t s l, mblk_at m c t p s]

/-- A FIRST point leaves, in the tile, `-∞` joined with its contribution. -/
theorem first_at (c : Dev nD) (t : Fin cfg0.N) (hc0 : cond0_0 (grid0.coords t)) (hc1 : ¬cond0_1 (grid0.coords t))
    (i : S128x256.Idx) :
    sout0_A_0 c (grid0.coords t) (ms0_0 t) (hs0_0 t) (ms0_1 t) (hs0_1 t) (ms0_2 t) (hs0_2 t) scM0_0
        (Memref.isWhole_whole _) hc0 hc1 (iblk m c 0 t) (iblk m c 1 t) i
      = (⊥ : EReal) ⊔ tileMax (X m c) (Y m c) t.val i :=
  (congrFun (Pieces.tile_first (F := Ideal) c (grid0.coords t) (ms0_0 t) (hs0_0 t) (ms0_1 t) (hs0_1 t) (ms0_2 t)
      (hs0_2 t) scM0_0 (Memref.isWhole_whole _) hc0 hc1 (iblk m c 0 t) (iblk m c 1 t)) i).trans
    ((step_at m c t (k0_pay1 (F := Ideal)) i).trans
      (congrArg (fun z => z ⊔ tileMax (X m c) (Y m c) t.val i) (pay1_apply i)))

/-- A MIDDLE point joins its contribution to what the point before left in the tile. -/
theorem mid_at (c : Dev nD) (t : Fin cfg0.N) (hc0 : ¬cond0_0 (grid0.coords t)) (hc1 : ¬cond0_1 (grid0.coords t))
    (acc : Vec Ideal S128x256 .f32) (i : S128x256.Idx) :
    sout0_B_0 c (grid0.coords t) (ms0_0 t) (hs0_0 t) (ms0_1 t) (hs0_1 t) (ms0_2 t) (hs0_2 t) scM0_0
        (Memref.isWhole_whole _) hc0 hc1 (iblk m c 0 t) (iblk m c 1 t) acc i
      = acc i ⊔ tileMax (X m c) (Y m c) t.val i :=
  (congrFun (Pieces.tile_mid (F := Ideal) c (grid0.coords t) (ms0_0 t) (hs0_0 t) (ms0_1 t) (hs0_1 t) (ms0_2 t)
      (hs0_2 t) scM0_0 (Memref.isWhole_whole _) hc0 hc1 (iblk m c 0 t) (iblk m c 1 t) acc) i).trans
    (step_at m c t acc i)

/-- A LAST point joins its contribution to what the point before left in the tile. -/
theorem last_at (c : Dev nD) (t : Fin cfg0.N) (hc0 : ¬cond0_0 (grid0.coords t)) (hc1 : cond0_1 (grid0.coords t))
    (acc : Vec Ideal S128x256 .f32) (i : S128x256.Idx) :
    sout0_C_0 c (grid0.coords t) (ms0_0 t) (hs0_0 t) (ms0_1 t) (hs0_1 t) (ms0_2 t) (hs0_2 t) scM0_0
        (Memref.isWhole_whole _) hc0 hc1 (iblk m c 0 t) (iblk m c 1 t) acc i
      = acc i ⊔ tileMax (X m c) (Y m c) t.val i :=
  (congrFun (Pieces.tile_last (F := Ideal) c (grid0.coords t) (ms0_0 t) (hs0_0 t) (ms0_1 t) (hs0_1 t) (ms0_2 t)
      (hs0_2 t) scM0_0 (Memref.isWhole_whole _) hc0 hc1 (iblk m c 0 t) (iblk m c 1 t) acc) i).trans
    (step_at m c t acc i)

/-- THE TILE AFTER POINT `t`: `-∞` joined with the contributions of the points of `t`'s run up to `t`. -/
theorem tile_after (c : Dev nD) (t : Fin cfg0.N) (i : S128x256.Idx) :
    (outsAt0 m c t.val t.isLt).2 i
      = (⊥ : EReal) ⊔ (range (t.val % 8 + 1)).sup (fun k => tileMax (X m c) (Y m c) (8 * (t.val / 8) + k) i) := by
  have ha : ∀ (h : 8 * (t.val / 8) < cfg0.N) (i : S128x256.Idx),
      Value.scAt0_0 m c (8 * (t.val / 8)) h (VS0_0.read (Elt Ideal) VS0_0.junk) i
        = (⊥ : EReal) ⊔ tileMax (X m c) (Y m c) (8 * (t.val / 8)) i := by
    intro h i
    have h0 : 8 * (t.val / 8) % 8 = 0 := by omega
    have h1 : ¬8 * (t.val / 8) % 8 = 7 := by omega
    unfold Value.scAt0_0
    rw [dif_pos h0, dif_neg h1]
    exact first_at m c ⟨8 * (t.val / 8), h⟩ _ _ i
  have hg : ∀ (n : ℕ) (h : n < cfg0.N) (acc : S128x256.Idx → EReal) (i : S128x256.Idx),
      8 * (t.val / 8) < n → n ≤ 8 * (t.val / 8) + 7 →
      Value.scAt0_0 m c n h acc i = acc i ⊔ tileMax (X m c) (Y m c) n i := by
    intro n h acc i hlt hle
    have h0 : ¬n % 8 = 0 := by omega
    unfold Value.scAt0_0
    rw [dif_neg h0]
    by_cases h1 : n % 8 = 7
    · rw [dif_pos h1]; exact last_at m c ⟨n, h⟩ _ _ acc i
    · rw [dif_neg h1]; exact mid_at m c ⟨n, h⟩ _ _ acc i
  refine (congrFun (Value.soutsAt0_0_eq m c t) i).trans ?_
  exact LibSupBlocks.accAt_sup_apply
    (fun n h => Value.scAt0_0 m c n h (VS0_0.read (Elt Ideal) VS0_0.junk)) (Value.scAt0_0 m c)
    (fun _ => (⊥ : EReal)) (fun n i => tileMax (X m c) (Y m c) n i) (8 * (t.val / 8)) 7 ha hg (t.val % 8)
    (by omega) _ i

end Cert.KernelIdeal.RunMax

end
-- ==== Proof.ArrayValue.lean ====
/-
  The kernel's result array is the specification.

  The output block of batch `b` and feature tile `u` is written back once, after the last of the eight points that
  walk the token tiles for `(b, u)`.  By then the running-maximum tile holds `-∞` joined with all eight
  contributions, which is the largest term over all 1024 token positions, and the body's third store has copied the
  tile into the block.  The six such blocks tile the `[2, 128, 768]` result.
-/
import proofs.«175286_j1795296329896_1_alg».proof.Proof.RunMax

noncomputable section

namespace Cert.KernelIdeal.ArrayValue

open Finset Idealize.ShloMosaic Idealize.ShloMosaic.TcCoe Idealize.SL.Sem Idealize.ShloMosaic.ValueIdx
  Cert.KernelIdeal Cert.KernelIdeal.Gen Cert.MaxSpec Cert.KernelIdeal.TileValue Cert.KernelIdeal.RunMax
open Idealize.ShloMosaic.Pipeline (Dat)

variable (m : (ℓ : Loc nD τ sig) → Buf (Elt Ideal) ℓ) (ρ : Dev nD → PrngReg)

/-- At the last point of a run the tile ends at the second store over what the point before left. -/
theorem tile_at_last (c : Dev nD) (t : Fin cfg0.N) (h0 : ¬t.val % 8 = 0) (h7 : t.val % 8 = 7) :
    (outsAt0 m c t.val t.isLt).2
      = k0_pay2 (F := Ideal) (iblk m c 1 t) (iblk m c 0 t)
          (outsAt0 m c (t.val - 1) (Nat.lt_of_le_of_lt (Nat.sub_le _ _) t.isLt)).2 :=
  (congrArg Prod.snd (outsAt0_C m c t h0 h7)).trans
    (Pieces.tile_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h7) (iblk m c 0 t)
      (iblk m c 1 t) (outsAt0 m c (t.val - 1) (Nat.lt_of_le_of_lt (Nat.sub_le _ _) t.isLt)).2)

/-- At the last point of a run the output's staging buffer ends at the third store of the second store over what
    the point before left in the tile. -/
theorem out_at_last (c : Dev nD) (t : Fin cfg0.N) (h0 : ¬t.val % 8 = 0) (h7 : t.val % 8 = 7) :
    (outsAt0 m c t.val t.isLt).1
      = k0_pay3 (F := Ideal) (k0_pay2 (F := Ideal) (iblk m c 1 t) (iblk m c 0 t)
          (outsAt0 m c (t.val - 1) (Nat.lt_of_le_of_lt (Nat.sub_le _ _) t.isLt)).2) := by
  rw [outsAt0_C m c t h0 h7]
  dsimp only
  exact Pieces.out_last (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h7) (iblk m c 0 t)
    (iblk m c 1 t) (outsAt0 m c (t.val - 1) (Nat.lt_of_le_of_lt (Nat.sub_le _ _) t.isLt)).2

/-- So at the last point of a run the output's staging buffer holds the third store of the tile the point leaves. -/
theorem out_eq_tile (c : Dev nD) (t : Fin cfg0.N) (h0 : ¬t.val % 8 = 0) (h7 : t.val % 8 = 7) :
    (outsAt0 m c t.val t.isLt).1 = k0_pay3 (F := Ideal) ((outsAt0 m c t.val t.isLt).2) :=
  (out_at_last m c t h0 h7).trans (congrArg (k0_pay3 (F := Ideal)) (tile_at_last m c t h0 h7).symm)

/-- WHAT A WRITE-BACK WRITES: the specification read through the point's block. -/
theorem flushed_eq (c : Dev nD) (t : Fin cfg0.N) (hf : (cfg0.win 2).flush t = true) :
    (dats m 0 c).flushed 2 t = ((cfg0.win 2).blk t).view.read (Elt Ideal) (G (X m c) (Y m c)) := by
  have h7 : t.val % 8 = 7 := (flush0_2 t).mp hf
  have h0 : ¬t.val % 8 = 0 := by omega
  obtain ⟨-, -, -, -, -, -, e0, e1, e2⟩ := idx_facts t
  rw [Value.flushed2]
  funext j
  obtain ⟨u, p, l, rfl⟩ : ∃ (u : Fin 1) (p : Fin 128) (l : Fin 256), j = ix3 u p l := ⟨j 0, j 1, j 2, eq_ix3 j⟩
  rw [View.read_apply]
  show (outsAt0 m c t.val t.isLt).1 (ix3 u p l) = G (X m c) (Y m c) (((cfg0.win 2).blk t).view.emb (ix3 u p l))
  refine (congrFun (out_eq_tile m c t h0 h7) (ix3 u p l)).trans ?_
  refine (pay3_apply _ u p l).trans ?_
  refine (tile_after m c t (ix2 p l)).trans ?_
  rw [h7]
  refine (run_sup (X m c) (Y m c) (t.val / 8) (ix2 p l)).trans ?_
  unfold G
  have hu : u.val = 0 := by omega
  have c0 : ((((cfg0.win 2).blk t).view.emb (ix3 u p l)) 0).val = t.val / 8 / 3 := by
    show win0_2.index t (0 : Fin 3) * 1 + 1 * u.val = _; omega
  have c1 : ((((cfg0.win 2).blk t).view.emb (ix3 u p l)) 1).val = p.val := by
    show win0_2.index t (1 : Fin 3) * 128 + 1 * p.val = _; omega
  have c2 : ((((cfg0.win 2).blk t).view.emb (ix3 u p l)) 2).val = t.val / 8 % 3 * 256 + l.val := by
    show win0_2.index t (2 : Fin 3) * 256 + 1 * l.val = _; omega
  rw [c0, c1, c2]

/-- An index of the result is in point `t`'s block iff each coordinate is in the block's range on its axis. -/
theorem mem_blk (t : Fin cfg0.N) (i : S2x128x768.Idx) :
    i ∈ ((cfg0.win 2).blk t).view.set ↔ ∀ a : Fin 3, win0_2.index t a * S1x128x256.size a ≤ (i a).val
      ∧ (i a).val < win0_2.index t a * S1x128x256.size a + S1x128x256.size a := by
  show i ∈ ((View.whole main_v0).slice (win0_2.rect t)).set ↔ _
  rw [View.set_slice_whole, Rect.mem_set_unit]
  exact Iff.rfl

/-- Result index `(b, p, j)` lies in the block written back after the last point of the run for batch `b` and
    feature tile `j / 256`. -/
theorem cover (i : S2x128x768.Idx) :
    ∃ t : Fin cfg0.N, (cfg0.win 2).flush t = true ∧ i ∈ ((cfg0.win 2).blk t).view.set := by
  have hN : cfg0.N = 48 := N_0
  have h0 : (i 0).val < 2 := (i 0).isLt
  have h1 : (i 1).val < 128 := (i 1).isLt
  have h2 : (i 2).val < 768 := (i 2).isLt
  have hb : ((i 0).val * 3 + (i 2).val / 256) * 8 + 7 < cfg0.N := by omega
  refine ⟨⟨((i 0).val * 3 + (i 2).val / 256) * 8 + 7, hb⟩, (flush0_2 _).mpr (by dsimp only; omega), ?_⟩
  obtain ⟨-, -, -, -, -, -, e0, e1, e2⟩ :=
    idx_facts (⟨((i 0).val * 3 + (i 2).val / 256) * 8 + 7, hb⟩ : Fin cfg0.N)
  dsimp only at e0 e1 e2
  rw [mem_blk]
  intro a
  match a with
  | ⟨0, _⟩ =>
    show win0_2.index _ (0 : Fin 3) * 1 ≤ (i 0).val ∧ (i 0).val < win0_2.index _ (0 : Fin 3) * 1 + 1
    omega
  | ⟨1, _⟩ =>
    show win0_2.index _ (1 : Fin 3) * 128 ≤ (i 1).val ∧ (i 1).val < win0_2.index _ (1 : Fin 3) * 128 + 128
    omega
  | ⟨2, _⟩ =>
    show win0_2.index _ (2 : Fin 3) * 256 ≤ (i 2).val ∧ (i 2).val < win0_2.index _ (2 : Fin 3) * 256 + 256
    omega

/-- THE RESULT ARRAY after the run is the specification of the two arguments. -/
theorem final (c : Dev nD) : (dats m 0 c).arrAt 2 cfg0.N = G (X m c) (Y m c) :=
  (dats m 0 c).arrAt_eq_of_cover 2 (G (X m c) (Y m c)) (flushed_eq m c) cover

/-- The kernel's run: it terminates with the result array at the specification and the arguments unchanged. -/
theorem run : θ_run defs (onTc (τ := τ) (main (F := Ideal))) ⟨m, fun _ => 0, ρ⟩ fun r => ∀ c : Dev nD,
      r.2.mem ((c : Thread nD τ).loc main_v0) = G (X m c) (Y m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.lean ====
/-
  Masked max-pooling over token spans: the kernel against its reference, over the extended reals.

  Both programs compute, for a batch `b`, a mention `p` and a feature column `j`,

      out[b, p, j] = max over the 1024 token positions s of ( h[b, s, j] + pen[b, p, s] ),

  where `pen[b, p, s]` is one fixed finite negative number when `mask[b, p, s] = 0` and `0` otherwise, and the
  maximum of no numbers is `-∞`.  The reference reduces a `[2, 128, 1024, 768]` array over its token axis in one
  step.  The kernel walks a `2 × 3 × 8` grid: for each batch and each tile of 256 feature columns it visits the eight
  tiles of 128 token positions in turn, keeps a `128 × 256` running maximum that starts at `-∞`, joins each tile's
  own maximum to it, and copies it out after the eighth tile.  The two agree because `max` is associative and
  commutative with `-∞` as its identity, so the maximum over `8 · 128` positions is the maximum of the eight tile
  maxima; no finiteness of the inputs is used.

  The idealised kernel's text is the kernel's own (the ledger of rewrites is empty), so `preserves` is `True`.
  The three frames are the generated ones; the reference's is its generated run with the result dropped.
-/
import proofs.«175286_j1795296329896_1_alg».proof.Defs
import proofs.«175286_j1795296329896_1_alg».proof.Proof.Gen.Kernel
import proofs.«175286_j1795296329896_1_alg».proof.Proof.Gen.Kernel.Skeleton
import proofs.«175286_j1795296329896_1_alg».proof.Proof.Gen.Kernel.Launch
import proofs.«175286_j1795296329896_1_alg».proof.Proof.Gen.Kernel.Points
import proofs.«175286_j1795296329896_1_alg».proof.Proof.Gen.Kernel.Frame
import proofs.«175286_j1795296329896_1_alg».proof.Proof.Gen.KernelIdeal
import proofs.«175286_j1795296329896_1_alg».proof.Proof.Gen.KernelIdeal.Skeleton
import proofs.«175286_j1795296329896_1_alg».proof.Proof.Gen.KernelIdeal.Launch
import proofs.«175286_j1795296329896_1_alg».proof.Proof.Gen.KernelIdeal.Points
import proofs.«175286_j1795296329896_1_alg».proof.Proof.Gen.KernelIdeal.Frame
import proofs.«175286_j1795296329896_1_alg».proof.Proof.Gen.ReferenceIdeal
import proofs.«175286_j1795296329896_1_alg».proof.Proof.Gen.Pre_finite_inputs
import proofs.«175286_j1795296329896_1_alg».proof.Proof.Gen.KernelIdeal.Value
import proofs.«175286_j1795296329896_1_alg».proof.Proof.Gen.ReferenceIdeal.Run
import proofs.«175286_j1795296329896_1_alg».proof.Proof.Gen.ReferenceIdeal.Read
import proofs.«175286_j1795296329896_1_alg».proof.Proof.RefIsSpec
import proofs.«175286_j1795296329896_1_alg».proof.Proof.ArrayValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealisation. -/
theorem preserves : Cert.preserves_Kernel_KernelIdeal := trivial

/-- Over the extended reals the kernel's result array ends at the masked maximum over all token positions of its two
    arguments, and the reference's result is that same function of arguments that agree. -/
theorem algebraic : Cert.algebraic_KernelIdeal_ReferenceIdeal := by
  intro m ρ m' ρ' _ hagree
  refine ⟨fun c => Cert.MaxSpec.G (Cert.KernelIdeal.RunMax.X m c) (Cert.KernelIdeal.RunMax.Y m c),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v8_eq _ _).trans (Cert.ReferenceIdeal.RefValue.ref_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
